-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S2000x128 : Shape := ⟨2, ![2000, 128]⟩
abbrev S2000x1 : Shape := ⟨2, ![2000, 1]⟩

abbrev nBuf : Space → Nat
  | .hbm => 52
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S100000x128, .bf16⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .bf16⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S100000x128.size a
  hwx0_8 : ∀ i : grid0.Coords, EltTy.bits .f32 = 32 ∨ (Rect.block (s := S100000x128) S2000x128.size (cc0_transform_8 i) (hinb0_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v26) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 66
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_cst : Ref sig .tc := ⟨.hbm, 52, rfl⟩
abbrev main_call2_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call3_cst : Ref sig .tc := ⟨.hbm, 59, rfl⟩
abbrev main_call3_v0 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Mlp.lean ====
/-
  A three-layer perceptron applied row by row, on the extended reals.

  One dense layer sends a row `x` of `K` numbers to the `C` numbers `∑ₖ x k · W (k, c) + b c`; the rectifier
  is the maximum with the zero word's value. The network of this certificate multiplies row `p` of an
  aggregated feature matrix `A` by that row's scale `n (p, 0)`, and passes it through three dense layers
  with the rectifier after the first two. Every entry of the result depends on ONE row of `A` and of `n` only:
  that is why a kernel that treats the rows block by block and a program that multiplies the whole matrices
  compute the same array.
-/
import Idealize.ShloMosaic.PureOps.Ideal
import Idealize.ShloMosaic.Lib.ValueIdx

noncomputable section

open scoped BigOperators

namespace Cert.Mlp

open Idealize.ShloMosaic Idealize.ShloMosaic.ValueIdx

/-- One dense layer on one row: entry `c` is `∑ₖ x k · W (k, c) + b c`. -/
def dense {K C : Nat} (x : Fin K → EReal) (W : (⟨2, ![K, C]⟩ : Shape).Idx → EReal) (b : Fin C → EReal) (c : Fin C) : EReal :=
  (∑ k : Fin K, x k * W (ix2 k c)) + b c

/-- The rectifier: the maximum with the value of the zero word. -/
def relu (z : EReal) : EReal := max z (Ideal.ofBits .f32 0x00000000#32)

/-- Three dense layers on one row, rectified after the first and after the second. -/
def row {D : Nat} (a : Fin D → EReal) (Wc : (⟨2, ![D, D]⟩ : Shape).Idx → EReal) (bc : Fin D → EReal)
    (W1 : (⟨2, ![D, D]⟩ : Shape).Idx → EReal) (b1 : Fin D → EReal)
    (W2 : (⟨2, ![D, D]⟩ : Shape).Idx → EReal) (b2 : Fin D → EReal) : Fin D → EReal :=
  dense (fun k => relu (dense (fun l => relu (dense a Wc bc l)) W1 b1 k)) W2 b2

/-- The network at row `p`, column `c`: the row `A (p, ·)` scaled by `n (p, 0)`, through the three layers; the
    biases are vectors `[D]`. -/
def net {N D : Nat} (A : (⟨2, ![N, D]⟩ : Shape).Idx → EReal) (n : (⟨2, ![N, 1]⟩ : Shape).Idx → EReal)
    (Wc : (⟨2, ![D, D]⟩ : Shape).Idx → EReal) (bc : (⟨1, ![D]⟩ : Shape).Idx → EReal)
    (W1 : (⟨2, ![D, D]⟩ : Shape).Idx → EReal) (b1 : (⟨1, ![D]⟩ : Shape).Idx → EReal)
    (W2 : (⟨2, ![D, D]⟩ : Shape).Idx → EReal) (b2 : (⟨1, ![D]⟩ : Shape).Idx → EReal)
    (p : Fin N) (c : Fin D) : EReal :=
  row (fun k => A (ix2 p k) * n (ix2 p (0 : Fin 1))) Wc (fun j => bc (ix1 j)) W1 (fun j => b1 (ix1 j)) W2 (fun j => b2 (ix1 j)) c

end Cert.Mlp

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.LibBroadcastInDim.lean ====
/-
  A `broadcast_in_dim` of small shapes read at coordinates: a scalar spread over any shape; a vector [a] set as the
  column [a, 1]; a column [a, 1] spread over b lanes to [a, b]; a vector [b] set as the row [1, b]; a row [1, b]
  spread over a rows to [a, b]. Each is the library's general lemma (the result at j is the operand at j's
  coordinates on the axes the dimension map names, 0 on the operand's unit axes) with the per-axis arithmetic
  discharged for these shapes.
-/
import Idealize.ShloMosaic.Lib.Pipeline.Value
import Idealize.ShloMosaic.Lib.ValueIdx

namespace Cert.Lib.BroadcastInDim

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector [a] set as the column [a, 1] reads, at (r, u), the vector at r. -/
theorem vec_col_apply {a : ℕ} (h : (⟨1, ![a]⟩ : Shape).BroadcastsInDim ⟨2, ![a, 1]⟩ (![0] : Fin 1 → Fin 2))
    (x : (⟨1, ![a]⟩ : Shape).Idx → α) (r : Fin a) (u : Fin 1) :
    broadcastInDim ⟨2, ![a, 1]⟩ (![0] : Fin 1 → Fin 2) h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column [a, 1] spread over b lanes reads, at (r, q), the column at r. -/
theorem col_lanes_apply {a b : ℕ} (h : (⟨2, ![a, 1]⟩ : Shape).BroadcastsInDim ⟨2, ![a, b]⟩ (![0, 1] : Fin 2 → Fin 2))
    (x : (⟨2, ![a, 1]⟩ : Shape).Idx → α) (r : Fin a) (q : Fin b) :
    broadcastInDim ⟨2, ![a, b]⟩ (![0, 1] : Fin 2 → Fin 2) h x (ix2 r q) = x (ix2 r (0 : Fin 1)) := by
  refine broadcastInDim_apply _ h x (ix2 r q) (ix2 r (0 : Fin 1)) fun ax => ?_
  match ax with
  | ⟨0, _⟩ =>
    show r.val = if a = 1 then 0 else r.val
    split
    · have := r.isLt; omega
    · rfl
  | ⟨1, _⟩ =>
    show 0 = if (1 : ℕ) = 1 then 0 else q.val
    rw [if_pos rfl]

/-- A vector [b] set as the row [1, b] reads, at (u, q), the vector at q. -/
theorem vec_row_apply {b : ℕ} (h : (⟨1, ![b]⟩ : Shape).BroadcastsInDim ⟨2, ![1, b]⟩ (![1] : Fin 1 → Fin 2))
    (x : (⟨1, ![b]⟩ : Shape).Idx → α) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread over a rows reads, at (r, q), the row at q. -/
theorem row_rows_apply {a b : ℕ} (h : (⟨2, ![1, b]⟩ : Shape).BroadcastsInDim ⟨2, ![a, b]⟩ (![0, 1] : Fin 2 → Fin 2))
    (x : (⟨2, ![1, b]⟩ : Shape).Idx → α) (r : Fin a) (q : Fin b) :
    broadcastInDim ⟨2, ![a, b]⟩ (![0, 1] : Fin 2 → Fin 2) h x (ix2 r q) = x (ix2 (0 : Fin 1) q) := by
  refine broadcastInDim_apply _ h x (ix2 r q) (ix2 (0 : Fin 1) q) fun ax => ?_
  match ax with
  | ⟨0, _⟩ =>
    show 0 = if (1 : ℕ) = 1 then 0 else r.val
    rw [if_pos rfl]
  | ⟨1, _⟩ =>
    show q.val = if b = 1 then 0 else q.val
    split
    · have := q.isLt; omega
    · rfl

end Cert.Lib.BroadcastInDim
-- ==== Proof.DenseLayer.lean ====
/-
  One dense layer read at an entry, in the two spellings this certificate meets, both at exact arithmetic.

  On the matrix unit: a block `A` of `M` rows times a `K × C` matrix `W` from the zero accumulator, plus a bias
  held as one row `[1, C]` spread over the `M` rows. On the host: the product of the whole `N`-row matrix by
  `W`, plus a bias vector `[C]` set as a row and spread over the `N` rows. Read at `(p, c)` both are
  `Mlp.dense` of row `p` of the left operand: `∑ₖ A (p, k) · W (k, c) + b c`.
-/
import proofs.«135242_j29446295781899_2_alg».proof.Proof.Mlp
import proofs.«135242_j29446295781899_2_alg».proof.Proof.LibPlainDot
import proofs.«135242_j29446295781899_2_alg».proof.Proof.LibBroadcastInDim
import Idealize.ShloMosaic.Lib.Pipeline.Value
import Idealize.ShloMosaic.Lib.ValueLayout

noncomputable section

open scoped BigOperators

namespace Cert.Mlp

open Idealize.ShloMosaic Idealize.ShloMosaic.ValueIdx

/-- A block times a matrix from the zero accumulator plus a spread bias row, at an entry, is the dense layer of
    the block's row. -/
theorem dense_block {M K C : Nat} {φ₁ φ₂ : FTy} (d : DotDims ⟨2, ![M, K]⟩ ⟨2, ![K, C]⟩ ⟨2, ![M, C]⟩)
    (hd : d = DotDims.plain M K C) (prec : Option ContractPrecision)
    (A : FVec Ideal ⟨2, ![M, K]⟩ φ₁) (W : FVec Ideal ⟨2, ![K, C]⟩ φ₂) (b : FVec Ideal ⟨2, ![1, C]⟩ .f32)
    (hb : (⟨2, ![1, C]⟩ : Shape).ShapeCasts ⟨2, ![1, C]⟩)
    (hbb : (⟨2, ![1, C]⟩ : Shape).Broadcasts ⟨2, ![M, C]⟩) (p : Fin M) (c : Fin C) :
    addf (matmul d prec A W (constant ⟨2, ![M, C]⟩ .f32 0x00000000#32))
        (broadcastTo ⟨2, ![M, C]⟩ (shapeCast ⟨2, ![1, C]⟩ b hb) hbb) (ix2 p c)
      = dense (fun k => A (ix2 p k)) W (fun j => b (ix2 (0 : Fin 1) j)) c := by
  subst hd
  rw [addf_apply, shapeCast_self, broadcastTo_1b_ab_apply]
  exact congrArg (· + b (ix2 (0 : Fin 1) c)) (Cert.Lib.PlainDot.matmul_plain_zero_apply prec A W p c)

/-- The host's product of a whole matrix by `W` plus a bias vector set as a row and spread over the rows, at an
    entry, is the dense layer of the matrix's row. -/
theorem dense_host {N K C : Nat} {φ₁ φ₂ : FTy} (d : DotDims ⟨2, ![N, K]⟩ ⟨2, ![K, C]⟩ ⟨2, ![N, C]⟩)
    (hd : d = DotDims.plain N K C) (prec : Option ContractPrecision)
    (A : FVec Ideal ⟨2, ![N, K]⟩ φ₁) (W : FVec Ideal ⟨2, ![K, C]⟩ φ₂) (b : FVec Ideal ⟨1, ![C]⟩ .f32)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2)) (p : Fin N) (c : Fin C) :
    addf (Host.dotGeneral d prec A W)
        (broadcastInDim ⟨2, ![N, C]⟩ (![0, 1] : Fin 2 → Fin 2) h2 (broadcastInDim ⟨2, ![1, C]⟩ (![1] : Fin 1 → Fin 2) h1 b)) (ix2 p c)
      = dense (fun k => A (ix2 p k)) W (fun j => b (ix1 j)) c := by
  subst hd
  rw [addf_apply, Cert.Lib.BroadcastInDim.row_rows_apply, Cert.Lib.BroadcastInDim.vec_row_apply]
  exact congrArg (· + b (ix1 c)) (Cert.Lib.PlainDot.dotGeneral_plain_apply prec .single A W p c)

end Cert.Mlp

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.BlockRows.lean ====
/-
  The kernel's body at one row of a block.

  On a block of 2000 rows the body multiplies each row of the aggregated features by that row's scale, then
  applies three dense layers on the matrix unit — a product with a 128 × 128 weight matrix from the zero
  accumulator plus a bias row spread over the rows — with the maximum against zero after the first and the
  second. Its changes of format before each product are the identity on the extended reals. Read at row `p`,
  column `c`, the value stored is therefore `Mlp.row` of row `p` of the scaled block: one dense layer at a time,
  each matrix product at an entry being the sum over the shared axis.
-/
import proofs.«135242_j29446295781899_2_alg».proof.Proof.DenseLayer
import proofs.«135242_j29446295781899_2_alg».proof.Proof.LibKeepdims
import proofs.«135242_j29446295781899_2_alg».proof.Proof.Gen.KernelIdeal.Skeleton

noncomputable section

open scoped BigOperators

namespace Cert.KernelIdeal.Hand

open Cert.KernelIdeal Cert.KernelIdeal.Gen Idealize.ShloMosaic Idealize.ShloMosaic.ValueIdx

/-- The value the body stores, at row `p` and column `c` of the block, is the three-layer row function of row `p`
    of the features block times that row's scale, with the weights and the bias rows as loaded. -/
theorem pay_apply (x0 : Vec Ideal S2000x128 .f32) (x1 : Vec Ideal S2000x1 .f32) (x2 : Vec Ideal S128x128 .f32)
    (x3 : Vec Ideal S1x128 .f32) (x4 : Vec Ideal S128x128 .f32) (x5 : Vec Ideal S1x128 .f32)
    (x6 : Vec Ideal S128x128 .f32) (x7 : Vec Ideal S1x128 .f32) (p : Fin 2000) (c : Fin 128) :
    k0_pay1 (F := Ideal) x0 x1 x2 x3 x4 x5 x6 x7 (ix2 p c)
      = Mlp.row (fun k => x0 (ix2 p k) * x1 (ix2 p (0 : Fin 1))) x2 (fun j => x3 (ix2 (0 : Fin 1) j))
          x4 (fun j => x5 (ix2 (0 : Fin 1) j)) x6 (fun j => x7 (ix2 (0 : Fin 1) j)) c := by
  unfold k0_pay1 Mlp.row
  refine (Mlp.dense_block _ rfl none _ _ _ _ _ p c).trans ?_
  refine congrArg (fun f => Mlp.dense f _ _ c) (funext fun k => ?_)
  refine (congrArg Mlp.relu (Mlp.dense_block _ rfl none _ _ _ _ _ p k)).trans ?_
  refine congrArg (fun f => Mlp.relu (Mlp.dense f _ _ k)) (funext fun l => ?_)
  refine (congrArg Mlp.relu (Mlp.dense_block _ rfl none _ _ _ _ _ p l)).trans ?_
  refine congrArg (fun f => Mlp.relu (Mlp.dense f _ _ l)) (funext fun q => ?_)
  show (shapeCast S2000x128 x0 shapeCasts_S2000x128_S2000x128) (ix2 p q)
      * (broadcastTo S2000x128 (shapeCast S2000x1 x1 shapeCasts_S2000x1_S2000x1) broadcasts_S2000x1_S2000x128) (ix2 p q) = _
  rw [shapeCast_self, shapeCast_self, Cert.Lib.Keepdims.broadcastTo_a1_ab_apply]

end Cert.KernelIdeal.Hand

end
-- ==== Proof.BlockReads.lean ====
/-
  The kernel's windows read at coordinates.

  The 100000 rows are cut in 50 blocks of 2000. Window 0 (the aggregated features), window 1 (the per-row scale)
  and window 8 (the result) are at block row `t` at grid point `t`: entry `(p, ·)` of the block is entry
  `(2000·t + p, ·)` of the array. Windows 2 to 7 (the weights and the bias rows) are one block, the whole array,
  at every point.
-/
import proofs.«135242_j29446295781899_2_alg».proof.Proof.Gen.KernelIdeal.Frame
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

/-- The printed index maps, decided over the 50 points: the row-blocked windows are at block row `t`, column 0;
    the others at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The array row that row `p` of block `t` is: `2000·t + p`. -/
def rowOf (t : Fin cfg0.N) (p : Fin 2000) : Fin 100000 :=
  ⟨t.val * 2000 + p.val, by have := Nat.lt_of_lt_of_eq t.isLt N_0; omega⟩

theorem rowOf_val (t : Fin cfg0.N) (p : Fin 2000) : (rowOf t p).val = t.val * 2000 + p.val := rfl

/-- Entry `(p, q)` of the result's block `t` is the array's entry `(2000·t + p, q)`. -/
theorem emb8 (t : Fin cfg0.N) (p : Fin 2000) (q : Fin 128) :
    ((cfg0.win 8).blk t).view.emb (ix2 p q) = ix2 (rowOf t p) q := by
  obtain ⟨-, -, -, -, -, -, -, -, -, -, -, -, -, -, -, -, e80, e81⟩ := idx_facts t
  funext a; apply Fin.ext
  match a with
  | ⟨0, _⟩ => show win0_8.index t (0 : Fin 2) * 2000 + 1 * p.val = t.val * 2000 + p.val; omega
  | ⟨1, _⟩ => show win0_8.index t (1 : Fin 2) * 128 + 1 * q.val = q.val; omega

/-- Entry `(p, q)` of block `t` of a [100000, 128] array read through the result's window is the array's entry
    `(2000·t + p, q)`. -/
theorem read8 (t : Fin cfg0.N) (f : S100000x128.Idx → EReal) (p : Fin 2000) (q : Fin 128) :
    ((cfg0.win 8).blk t).view.read (Elt Ideal) f (ix2 p q) = f (ix2 (rowOf t p) q) := by
  show f (((cfg0.win 8).blk t).view.emb (ix2 p q)) = f (ix2 (rowOf t p) q)
  rw [emb8]

/-- The result's blocks never overhang the array: cutting a block to the array's extent leaves it as it is. -/
theorem cut8 (t : Fin cfg0.N) (X : Vec Ideal S2000x128 .f32) :
    (cfg0.win 8).cut (grid0.coords t) X = X := rfl

/-- Row `p` of block `t` of a [100000, 128] array read through window 0 is the array's row `2000·t + p`. -/
theorem read0 (t : Fin cfg0.N) (f : S100000x128.Idx → EReal) (p : Fin 2000) (k : Fin 128) :
    ((cfg0.win 0).blk t).view.read (Elt Ideal) f (ix2 p k) = f (ix2 (rowOf t p) k) := by
  obtain ⟨e00, e01, -, -, -, -, -, -, -, -, -, -, -, -, -, -, -, -⟩ := idx_facts t
  show f (((cfg0.win 0).blk t).view.emb (ix2 p k)) = f (ix2 (rowOf t p) k)
  refine congrArg f (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

/-- Row `p` of block `t` of a [100000, 1] column read through window 1 is the column's row `2000·t + p`. -/
theorem read1 (t : Fin cfg0.N) (f : S100000x1.Idx → EReal) (p : Fin 2000) :
    ((cfg0.win 1).blk t).view.read (Elt Ideal) f (ix2 p (0 : Fin 1)) = f (ix2 (rowOf t p) (0 : Fin 1)) := by
  obtain ⟨-, -, e10, e11, -, -, -, -, -, -, -, -, -, -, -, -, -, -⟩ := idx_facts t
  show f (((cfg0.win 1).blk t).view.emb (ix2 p (0 : Fin 1))) = f (ix2 (rowOf t p) (0 : Fin 1))
  refine congrArg f (funext fun a => Fin.ext ?_)
  match a with
  | ⟨0, _⟩ => show win0_1.index t (0 : Fin 2) * 2000 + 1 * p.val = t.val * 2000 + p.val; omega
  | ⟨1, _⟩ => show win0_1.index t (1 : Fin 2) * 1 + 1 * 0 = 0; omega

/-- Window 2 is one block, the whole of its array (the first weight matrix): read through it, an array is itself. -/
theorem read2 (t : Fin cfg0.N) (f : S128x128.Idx → EReal) :
    ((cfg0.win 2).blk t).view.read (Elt Ideal) f = f := by
  obtain ⟨-, -, -, -, e20, e21, e30, e31, e40, e41, e50, e51, e60, e61, e70, e71, -, -⟩ := idx_facts t
  funext y
  show f (((cfg0.win 2).blk t).view.emb y) = f y
  refine congrArg f (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 3 is one block, the whole of its array (the first bias row): read through it, an array is itself. -/
theorem read3 (t : Fin cfg0.N) (f : S1x128.Idx → EReal) :
    ((cfg0.win 3).blk t).view.read (Elt Ideal) f = f := by
  obtain ⟨-, -, -, -, e20, e21, e30, e31, e40, e41, e50, e51, e60, e61, e70, e71, -, -⟩ := idx_facts t
  funext y
  show f (((cfg0.win 3).blk t).view.emb y) = f y
  refine congrArg f (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Window 4 is one block, the whole of its array (the second weight matrix): read through it, an array is itself. -/
theorem read4 (t : Fin cfg0.N) (f : S128x128.Idx → EReal) :
    ((cfg0.win 4).blk t).view.read (Elt Ideal) f = f := by
  obtain ⟨-, -, -, -, e20, e21, e30, e31, e40, e41, e50, e51, e60, e61, e70, e71, -, -⟩ := idx_facts t
  funext y
  show f (((cfg0.win 4).blk t).view.emb y) = f y
  refine congrArg f (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5 is one block, the whole of its array (the second bias row): read through it, an array is itself. -/
theorem read5 (t : Fin cfg0.N) (f : S1x128.Idx → EReal) :
    ((cfg0.win 5).blk t).view.read (Elt Ideal) f = f := by
  obtain ⟨-, -, -, -, e20, e21, e30, e31, e40, e41, e50, e51, e60, e61, e70, e71, -, -⟩ := idx_facts t
  funext y
  show f (((cfg0.win 5).blk t).view.emb y) = f y
  refine congrArg f (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Window 6 is one block, the whole of its array (the third weight matrix): read through it, an array is itself. -/
theorem read6 (t : Fin cfg0.N) (f : S128x128.Idx → EReal) :
    ((cfg0.win 6).blk t).view.read (Elt Ideal) f = f := by
  obtain ⟨-, -, -, -, e20, e21, e30, e31, e40, e41, e50, e51, e60, e61, e70, e71, -, -⟩ := idx_facts t
  funext y
  show f (((cfg0.win 6).blk t).view.emb y) = f y
  refine congrArg f (funext fun a => Fin.ext ?_)
  match a with
  | ⟨0, _⟩ => show win0_6.index t (0 : Fin 2) * 128 + 1 * (y 0).val = (y 0).val; omega
  | ⟨1, _⟩ => show win0_6.index t (1 : Fin 2) * 128 + 1 * (y 1).val = (y 1).val; omega

/-- Window 7 is one block, the whole of its array (the third bias row): read through it, an array is itself. -/
theorem read7 (t : Fin cfg0.N) (f : S1x128.Idx → EReal) :
    ((cfg0.win 7).blk t).view.read (Elt Ideal) f = f := by
  obtain ⟨-, -, -, -, e20, e21, e30, e31, e40, e41, e50, e51, e60, e61, e70, e71, -, -⟩ := idx_facts t
  funext y
  show f (((cfg0.win 7).blk t).view.emb y) = f y
  refine congrArg f (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega

end Cert.KernelIdeal.Hand

end
-- ==== Proof.Blocks.lean ====
/-
  From blocks of rows to the whole array.

  At block `t` the kernel is handed rows `2000·t … 2000·t + 1999` of the aggregated features and of the per-row
  scale, the three weight matrices and the three bias rows whole, and writes back the same rows of the result.
  Entry `(p, q)` of what it writes depends on row `p` of its two row-blocked operands only (`pay_apply`), so it
  is the network's row function at array row `2000·t + p`; the 50 blocks tile the rows, so the array ends
  holding that function everywhere.
-/
import proofs.«135242_j29446295781899_2_alg».proof.Proof.BlockRows
import proofs.«135242_j29446295781899_2_alg».proof.Proof.BlockReads
import proofs.«135242_j29446295781899_2_alg».proof.Proof.Gen.KernelIdeal.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The arrays the kernel's windows read, as the region finds them, as plain functions of an index: the aggregated
    features, the per-row scale, the weights and the bias rows. -/
abbrev aggAt (c : Dev nD) : S100000x128.Idx → EReal := V m c main_v26
abbrev scaleAt (c : Dev nD) : S100000x1.Idx → EReal := V m c main_v12
abbrev wcAt (c : Dev nD) : S128x128.Idx → EReal := V m c main_arg3
abbrev bcAt (c : Dev nD) : S1x128.Idx → EReal := V m c main_v27
abbrev w1At (c : Dev nD) : S128x128.Idx → EReal := V m c main_arg5
abbrev b1At (c : Dev nD) : S1x128.Idx → EReal := V m c main_v28
abbrev w2At (c : Dev nD) : S128x128.Idx → EReal := V m c main_arg7
abbrev b2At (c : Dev nD) : S1x128.Idx → EReal := V m c main_v29

/-- The result at row `r`, column `q`, from those arrays: the row function of row `r` of the aggregated features
    times that row's scale, the weights, and the bias rows. -/
def atRow (c : Dev nD) (r : Fin 100000) (q : Fin 128) : EReal :=
  Mlp.row (fun k => aggAt m c (ix2 r k) * scaleAt m c (ix2 r (0 : Fin 1)))
    (wcAt m c) (fun j => bcAt m c (ix2 (0 : Fin 1) j))
    (w1At m c) (fun j => b1At m c (ix2 (0 : Fin 1) j))
    (w2At m c) (fun j => b2At m c (ix2 (0 : Fin 1) j)) q

/-- The whole result array. -/
def result (c : Dev nD) : S100000x128.Idx → EReal := fun i => atRow m c (i 0) (i 1)

/-- The body's payload on blocks that are the arrays' rows `r` (the row-blocked operands) and the whole arrays (the
    others) is the row function at `r`. -/
theorem pay_of_rows (A : S100000x128.Idx → EReal) (n : S100000x1.Idx → EReal)
    (Wc : S128x128.Idx → EReal) (bc : S1x128.Idx → EReal) (W1 : S128x128.Idx → EReal) (b1 : S1x128.Idx → EReal)
    (W2 : S128x128.Idx → EReal) (b2 : S1x128.Idx → EReal)
    (x0 : Vec Ideal S2000x128 .f32) (x1 : Vec Ideal S2000x1 .f32) (x2 : Vec Ideal S128x128 .f32)
    (x3 : Vec Ideal S1x128 .f32) (x4 : Vec Ideal S128x128 .f32) (x5 : Vec Ideal S1x128 .f32)
    (x6 : Vec Ideal S128x128 .f32) (x7 : Vec Ideal S1x128 .f32) (r : Fin 100000) (p : Fin 2000) (q : Fin 128)
    (h0 : ∀ k : Fin 128, x0 (ix2 p k) = A (ix2 r k)) (h1 : x1 (ix2 p (0 : Fin 1)) = n (ix2 r (0 : Fin 1)))
    (h2 : x2 = Wc) (h3 : x3 = bc) (h4 : x4 = W1) (h5 : x5 = b1) (h6 : x6 = W2) (h7 : x7 = b2) :
    k0_pay1 (F := Ideal) x0 x1 x2 x3 x4 x5 x6 x7 (ix2 p q)
      = Mlp.row (fun k => A (ix2 r k) * n (ix2 r (0 : Fin 1))) Wc (fun j => bc (ix2 (0 : Fin 1) j))
          W1 (fun j => b1 (ix2 (0 : Fin 1) j)) W2 (fun j => b2 (ix2 (0 : Fin 1) j)) q := by
  subst h2 h3 h4 h5 h6 h7
  rw [pay_apply]
  simp only [h0, h1]

/-- Row `p` of the aggregated features' block `t` is the array's row `2000·t + p`. -/
theorem blk0 (c : Dev nD) (t : Fin cfg0.N) (p : Fin 2000) (k : Fin 128) :
    (iblk m c 0 t : Vec Ideal S2000x128 .f32) (ix2 p k) = aggAt m c (ix2 (rowOf t p) k) := by
  unfold iblk
  exact read0 t (aggAt m c) p k

/-- Row `p` of the scale column's block `t` is the column's row `2000·t + p`. -/
theorem blk1 (c : Dev nD) (t : Fin cfg0.N) (p : Fin 2000) :
    (iblk m c 1 t : Vec Ideal S2000x1 .f32) (ix2 p (0 : Fin 1)) = scaleAt m c (ix2 (rowOf t p) (0 : Fin 1)) := by
  unfold iblk
  exact read1 t (scaleAt m c) p

/-- The weights' and the bias rows' blocks are the arrays. -/
theorem blk2 (c : Dev nD) (t : Fin cfg0.N) : (iblk m c 2 t : Vec Ideal S128x128 .f32) = wcAt m c := by
  unfold iblk
  exact read2 t (wcAt m c)
theorem blk3 (c : Dev nD) (t : Fin cfg0.N) : (iblk m c 3 t : Vec Ideal S1x128 .f32) = bcAt m c := by
  unfold iblk
  exact read3 t (bcAt m c)
theorem blk4 (c : Dev nD) (t : Fin cfg0.N) : (iblk m c 4 t : Vec Ideal S128x128 .f32) = w1At m c := by
  unfold iblk
  exact read4 t (w1At m c)
theorem blk5 (c : Dev nD) (t : Fin cfg0.N) : (iblk m c 5 t : Vec Ideal S1x128 .f32) = b1At m c := by
  unfold iblk
  exact read5 t (b1At m c)
theorem blk6 (c : Dev nD) (t : Fin cfg0.N) : (iblk m c 6 t : Vec Ideal S128x128 .f32) = w2At m c := by
  unfold iblk
  exact read6 t (w2At m c)
theorem blk7 (c : Dev nD) (t : Fin cfg0.N) : (iblk m c 7 t : Vec Ideal S1x128 .f32) = b2At m c := by
  unfold iblk
  exact read7 t (b2At m c)

/-- What point `t` writes back is block `t` of the result array. -/
theorem flushed_eq (c : Dev nD) (t : Fin cfg0.N) :
    (dats m 0 c).flushed 8 t = ((cfg0.win 8).blk t).view.read (Elt Ideal) (result m c) := by
  rw [Cert.KernelIdeal.Value.flushed8]
  unfold out0_8
  rw [View.canon_unit_zero hz]
  simp only [View.ld_unit_zero (S := S2000x128) hz, View.ld_unit_zero (S := S2000x1) hz, View.ld_unit_zero (S := S128x128) hz, View.ld_unit_zero (S := S1x128) hz]
  rw [cut8]
  funext y
  obtain ⟨p, q, rfl⟩ : ∃ (p : Fin 2000) (q : Fin 128), y = ix2 p q := ⟨y 0, y 1, eq_ix2 y⟩
  rw [read8]
  unfold result atRow
  exact pay_of_rows (aggAt m c) (scaleAt m c) (wcAt m c) (bcAt m c) (w1At m c) (b1At m c) (w2At m c) (b2At m c)
    _ _ _ _ _ _ _ _ (rowOf t p) p q (fun k => blk0 m c t p k) (blk1 m c t p) (blk2 m c t) (blk3 m c t) (blk4 m c t)
    (blk5 m c t) (blk6 m c t) (blk7 m c t)

/-- An index of the result array is in point `t`'s block iff each coordinate is in the block's range on its axis. -/
theorem mem_blk (t : Fin cfg0.N) (i : S100000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v30).slice (win0_8.rect t)).set ↔ _
  rw [View.set_slice_whole, Rect.mem_set_unit]
  exact Iff.rfl

/-- Every index of the result array is in the block of the point its row falls in: point `row / 2000`. -/
theorem cover (i : S100000x128.Idx) :
    ∃ t : Fin cfg0.N, (cfg0.win 8).flush t = true ∧ i ∈ ((cfg0.win 8).blk t).view.set := by
  have hi0 : (i 0).val < 100000 := idx2_lt0 i
  have hi1 : (i 1).val < 128 := idx2_lt1 i
  obtain ⟨t, ht⟩ : ∃ t : Fin cfg0.N, t.val = (i 0).val / 2000 :=
    ⟨⟨(i 0).val / 2000, by rw [show cfg0.N = 50 from N_0]; omega⟩, rfl⟩
  obtain ⟨-, -, -, -, -, -, -, -, -, -, -, -, -, -, -, -, e80, e81⟩ := idx_facts t
  refine ⟨t, flush0_8 t, ?_⟩
  rw [mem_blk]
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 128 ≤ (i 1).val ∧ (i 1).val < win0_8.index t (1 : Fin 2) * 128 + 128; omega

/-- So the result array ends holding `result`. -/
theorem final (c : Dev nD) : (dats m 0 c).arrAt 8 cfg0.N = result m c :=
  (dats m 0 c).arrAt_eq_of_cover 8 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v30) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩)
    (Cert.KernelIdeal.Value.run_blocks m ρ)

end Cert.KernelIdeal.Hand

end
-- ==== Proof.LibHostLines.lean ====
/-
  A straight line of host operations, cut at one of them.

  The contents a line of operations leaves are a fold over the list.  To read ONE buffer after a long line without
  unfolding all of it: a buffer that no operation from position `k` on writes holds what the first `k` operations
  left (`after_eq_take`); the first `k + 1` operations are the first `k` followed by operation `k`
  (`after_take_succ`), whose own result lemma then applies; and two stretches run one after the other compose
  (`after_append`).  With these a buffer written once, by an operation whose operands are written earlier or
  never, is read in a few steps whatever the line's length and whatever the other operations are.
-/
import Idealize.ShloMosaic.Lib.StableHlo.Run

noncomputable section

namespace Cert.Lib.HostLines

open Idealize.ShloMosaic Idealize.ShloMosaic.StableHlo

section Lines
variable {τ : Topo} {sig : RefSig} {Val : EltTy → Type}

/-- Two stretches run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer written by no operation from position `k` on holds what the first `k` operations left. -/
theorem after_eq_take (ops : List (HloOp τ sig Val)) (V : Valuation τ sig Val) (k : Nat) (b : DevRef τ sig)
    (h : ∀ op ∈ ops.drop k, b ∉ op.writes) : after ops V b = after (ops.take k) V b := by
  conv_lhs => rw [← List.take_append_drop k ops]
  rw [after_append, after_of_forall_not_mem _ _ h]

/-- The first `k + 1` operations are the first `k`, then operation `k`. -/
theorem after_take_succ (ops : List (HloOp τ sig Val)) (V : Valuation τ sig Val) (k : Nat) (hk : k < ops.length) :
    after (ops.take (k + 1)) V = (ops[k]).result (after (ops.take k) V) := by
  rw [List.take_succ_eq_append_getElem hk, after_append]; rfl

end Lines

end Cert.Lib.HostLines

end
-- ==== Proof.LibSingleAssignment.lean ====
/-
  A straight line of host operations in single-assignment form, read one operation at a time.

  When every operation of a line writes ONE buffer and the written buffers are listed in order
  (`ys`), a buffer that is not among `ys` from position `k` on is written by no operation from
  position `k` on.  So, after the WHOLE line, the buffer operation `k` writes holds what operation
  `k` computes from the contents the first `k` operations left (`after_at`), and an operand
  written before position `k` — or never — still holds after the whole line what it held then
  (`after_kept`).  With these two facts each buffer of a long line is read from its operands'
  final contents in a few steps, with nothing unfolded and every intermediate shared.
-/
import Idealize.ShloMosaic.Lib.StableHlo.Run
import proofs.«135242_j29446295781899_2_alg».proof.Proof.LibHostLines

noncomputable section

namespace Cert.Lib.SingleAssignment

open Idealize.ShloMosaic Idealize.ShloMosaic.StableHlo Cert.Lib.HostLines

variable {τ : Topo} {sig : RefSig} {Val : EltTy → Type}

/-- The line writes the buffers `ys`, one per operation, in order. -/
def Writes (ops : List (HloOp τ sig Val)) (ys : List (Ref sig .tc)) : Prop :=
  ops.map HloOp.writes = ys.map fun y => ({Proc.devRef (τ := τ) .tc y} : Finset (DevRef τ sig))

/-- A buffer not among the results from position `k` on is written by no operation from position `k` on. -/
theorem not_written_from {ops : List (HloOp τ sig Val)} {ys : List (Ref sig .tc)} (hw : Writes ops ys)
    (r : Ref sig .tc) (k : Nat) (hr : r ∉ ys.drop k) :
    ∀ op ∈ ops.drop k, Proc.devRef (τ := τ) .tc r ∉ op.writes := by
  intro op hop hmem
  have h1 : op.writes ∈ (ops.drop k).map HloOp.writes := List.mem_map_of_mem hop
  rw [List.map_drop, hw, ← List.map_drop] at h1
  obtain ⟨y, hy, hyw⟩ := List.mem_map.mp h1
  rw [← hyw, Finset.mem_singleton] at hmem
  exact hr (Proc.devRef_injective _ hmem ▸ hy)

/-- A buffer not written from position `k` on holds after the whole line what the first `k` operations left. -/
theorem after_kept {ops : List (HloOp τ sig Val)} {ys : List (Ref sig .tc)} (hw : Writes ops ys)
    (V : Valuation τ sig Val) (r : Ref sig .tc) (k : Nat) (hr : r ∉ ys.drop k) :
    after ops V (Proc.devRef .tc r) = after (ops.take k) V (Proc.devRef .tc r) := by
  exact after_eq_take ops V k _ (not_written_from hw r k hr)

/-- The buffer operation `k` writes, if no later operation writes it, holds after the whole line operation `k`'s
    result from the contents the first `k` operations left. -/
theorem after_at {ops : List (HloOp τ sig Val)} {ys : List (Ref sig .tc)} (hw : Writes ops ys)
    (V : Valuation τ sig Val) (r : Ref sig .tc) (k : Nat) (hk : k < ops.length) (hr : r ∉ ys.drop (k + 1)) :
    after ops V (Proc.devRef .tc r) = (ops[k]).result (after (ops.take k) V) (Proc.devRef .tc r) := by
  rw [after_kept hw V r (k + 1) hr, after_take_succ ops V k hk]

/-- A buffer the line never writes keeps its contents. -/
theorem after_never {ops : List (HloOp τ sig Val)} {ys : List (Ref sig .tc)} (hw : Writes ops ys)
    (V : Valuation τ sig Val) (r : Ref sig .tc) (hr : r ∉ ys) :
    after ops V (Proc.devRef .tc r) = V (Proc.devRef .tc r) :=
  after_of_forall_not_mem ops V (by simpa using not_written_from hw r 0 (by simpa using hr))

end Cert.Lib.SingleAssignment

end
-- ==== Proof.LibReadOperation.lean ====
/-
  One operation of a single-assignment line, read after the whole line.

  In a line whose operations each write one buffer, none written twice, the buffer operation `k` writes holds, after
  the WHOLE line, operation `k`'s function of what its operand buffers hold after the WHOLE line: the operands were
  written before position `k` or never, so they are not touched again.  One such equation per operation turns the
  line into a system of equations over the final contents, each proved in one step whatever the line's length, and a
  result buffer is then read by rewriting along them.
-/
import Idealize.ShloMosaic.Lib.StableHlo.Run
import proofs.«135242_j29446295781899_2_alg».proof.Proof.LibSingleAssignment

noncomputable section

namespace Cert.Lib.ReadOperation

open Idealize.ShloMosaic Idealize.ShloMosaic.StableHlo Cert.Lib.SingleAssignment

variable {τ : Topo} {sig : RefSig} {Val : EltTy → Type}
variable {ops : List (HloOp τ sig Val)} {ys : List (Ref sig .tc)}

/-- The buffer operation `k` writes holds, after the whole line, that operation's result from what the first `k`
    operations left. -/
theorem at_position (hw : Writes ops ys) (V : Valuation τ sig Val) (k : Nat) (y : Ref sig .tc) {op : HloOp τ sig Val}
    (hop : ops[k]? = some op) (hy' : y ∉ ys.drop (k + 1)) :
    after ops V (Proc.devRef .tc y) = op.result (after (ops.take k) V) (Proc.devRef .tc y) := by
  obtain ⟨hk, he⟩ := List.getElem?_eq_some_iff.mp hop
  rw [after_at hw V y k hk hy', he]

/-- Operation `k` is a constant: its buffer holds the constant after the whole line. -/
theorem nullary_at (hw : Writes ops ys) (V : Valuation τ sig Val) (k : Nat)
    (y : Ref sig .tc) {v : y.ty.Contents Val} {hy}
    (hop : ops[k]? = some (nullary y v hy)) (hy' : y ∉ ys.drop (k + 1)) :
    after ops V (Proc.devRef .tc y) = v := by
  rw [at_position hw V k y hop hy']
  exact nullary_result y v hy _

/-- Operation `k` has one operand. -/
theorem unary_at (hw : Writes ops ys) (V : Valuation τ sig Val) (k : Nat)
    (x y : Ref sig .tc) {f : x.ty.Contents Val → y.ty.Contents Val} {hx hy}
    (hop : ops[k]? = some (unary x y f hx hy)) (hy' : y ∉ ys.drop (k + 1)) (hx' : x ∉ ys.drop k) :
    after ops V (Proc.devRef .tc y) = f (after ops V (Proc.devRef .tc x)) := by
  rw [at_position hw V k y hop hy', after_kept hw V x k hx']
  exact unary_result x y f hx hy _

/-- Operation `k` has two operands. -/
theorem binary_at (hw : Writes ops ys) (V : Valuation τ sig Val) (k : Nat)
    (a b y : Ref sig .tc) {f : a.ty.Contents Val → b.ty.Contents Val → y.ty.Contents Val} {ha hb hy}
    (hop : ops[k]? = some (binary a b y f ha hb hy)) (hy' : y ∉ ys.drop (k + 1))
    (ha' : a ∉ ys.drop k) (hb' : b ∉ ys.drop k) :
    after ops V (Proc.devRef .tc y) = f (after ops V (Proc.devRef .tc a)) (after ops V (Proc.devRef .tc b)) := by
  rw [at_position hw V k y hop hy', after_kept hw V a k ha', after_kept hw V b k hb']
  exact binary_result a b y f ha hb hy _

/-- Operation `k` has three operands. -/
theorem ternary_at (hw : Writes ops ys) (V : Valuation τ sig Val) (k : Nat)
    (c a b y : Ref sig .tc) {f : c.ty.Contents Val → a.ty.Contents Val → b.ty.Contents Val → y.ty.Contents Val}
    {hc ha hb hy}
    (hop : ops[k]? = some (ternary c a b y f hc ha hb hy)) (hy' : y ∉ ys.drop (k + 1))
    (hc' : c ∉ ys.drop k) (ha' : a ∉ ys.drop k) (hb' : b ∉ ys.drop k) :
    after ops V (Proc.devRef .tc y)
      = f (after ops V (Proc.devRef .tc c)) (after ops V (Proc.devRef .tc a)) (after ops V (Proc.devRef .tc b)) := by
  rw [at_position hw V k y hop hy', after_kept hw V c k hc', after_kept hw V a k ha', after_kept hw V b k hb']
  exact ternary_result c a b y f hc ha hb hy _

end Cert.Lib.ReadOperation

end
-- ==== Proof.Entry.lean ====
/-
  The arrays the kernel's windows read, as functions of the arguments.

  Before the kernel is launched the host computes, from the arguments: the out- and in-degree counts (a scatter-add
  of ones at the source and at the destination positions), their reciprocal square roots clamped below at 1, the
  features scaled by the source's, gathered along the edges' sources (negative positions wrapped) and summed into
  the edges' destinations (the aggregated features), and the three bias vectors set as rows. The line of operations
  is in single-assignment form: each buffer is written once, from buffers written before it or never. So each
  operation is read after the WHOLE line from its operands' final contents, one equation per operation, and a
  window's array is read by rewriting along the equations back to the arguments, a few operations at a time. The
  terms reached are the reference program's stages: the two programs compute these arrays by the same operations,
  but for the kernel's change of the scaled features to a narrower format and back around the gather, which is
  the identity on the extended reals.
-/
import proofs.«135242_j29446295781899_2_alg».proof.Proof.Gen.KernelIdeal.Frame
import proofs.«135242_j29446295781899_2_alg».proof.Proof.Gen.ReferenceIdeal.Read
import proofs.«135242_j29446295781899_2_alg».proof.Proof.LibReadOperation
import Idealize.ShloMosaic.Lib.StableHlo.Run
import Idealize.ShloMosaic.PureOps.Ideal

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Cert.Lib.SingleAssignment Cert.Lib.ReadOperation

/-- The host operations before the kernel, as one line. -/
abbrev prelude : List (HloOp τ sig (Elt Ideal)) :=
  List.flatten [hostOps0, hostOps0_1, hostOps0_2, hostOps0_3, hostOps0_4]

/-- The buffers they write, in order. -/
abbrev written : List (Ref sig .tc) :=
  [main_cst, main_v0, main_cst_0, main_v1, main_v2, main_v3, main_cst_1, main_v4, main_v5, main_v6, main_cst_2,
   main_call0_v0, main_call0_v1, main_v7, main_v8, main_v9, main_cst_3, main_call1_v0, main_call1_v1, main_v10,
   main_v11, main_v12, main_v13, main_v14, main_v15, main_c, main_v16, main_v17, main_c_4, main_v18, main_v19,
   main_v20, main_v21, main_v22, main_v23, main_cst_5, main_v24, main_v25, main_v26, main_v27, main_v28, main_v29]

/-- Each operation writes one buffer, and these are the buffers, in order. -/
theorem hw : Writes (τ := τ) prelude written := rfl

variable (m : (ℓ : Loc nD τ sig) → Buf (Elt Ideal) ℓ)

/-- The vector of ones that both degree counts add up. -/
theorem ones_eq (c : Dev nD) : StableHlo.after prelude (fun b => m (c, b)) (Proc.devRef .tc main_v0) = Cert.ReferenceIdeal.Read.val_main_v0 (F := Ideal) := by
  have E1 := unary_at hw (fun b => m (c, b)) 1 main_cst main_v0 rfl (by decide) (by decide)
  have E0 := nullary_at hw (fun b => m (c, b)) 0 main_cst rfl (by decide)
  rw [E1, E0]
  rfl

/-- The out-degree count: ones added up at the source positions. -/
theorem outdeg_eq (c : Dev nD) : StableHlo.after prelude (fun b => m (c, b)) (Proc.devRef .tc main_v3) = Cert.ReferenceIdeal.Read.val_main_v3 (F := Ideal) (m (c, Proc.devRef .tc main_arg1)) := by
  have E5 := ternary_at hw (fun b => m (c, b)) 5 main_v1 main_v2 main_v0 main_v3 rfl (by decide) (by decide) (by decide) (by decide)
  have E4 := unary_at hw (fun b => m (c, b)) 4 main_arg1 main_v2 rfl (by decide) (by decide)
  have E3 := unary_at hw (fun b => m (c, b)) 3 main_cst_0 main_v1 rfl (by decide) (by decide)
  have E2 := nullary_at hw (fun b => m (c, b)) 2 main_cst_0 rfl (by decide)
  have A1 := after_never hw (fun b => m (c, b)) main_arg1 (by decide)
  rw [E5, E4, E3, E2, A1, ones_eq]
  rfl

/-- The in-degree count: ones added up at the destination positions. -/
theorem indeg_eq (c : Dev nD) : StableHlo.after prelude (fun b => m (c, b)) (Proc.devRef .tc main_v6) = Cert.ReferenceIdeal.Read.val_main_v6 (F := Ideal) (m (c, Proc.devRef .tc main_arg2)) := by
  have E9 := ternary_at hw (fun b => m (c, b)) 9 main_v4 main_v5 main_v0 main_v6 rfl (by decide) (by decide) (by decide) (by decide)
  have E8 := unary_at hw (fun b => m (c, b)) 8 main_arg2 main_v5 rfl (by decide) (by decide)
  have E7 := unary_at hw (fun b => m (c, b)) 7 main_cst_1 main_v4 rfl (by decide) (by decide)
  have E6 := nullary_at hw (fun b => m (c, b)) 6 main_cst_1 rfl (by decide)
  have A2 := after_never hw (fun b => m (c, b)) main_arg2 (by decide)
  rw [E9, E8, E7, E6, A2, ones_eq]
  rfl

/-- The source scale as a column: the reciprocal square root of the out-degree clamped below at 1. -/
theorem outscale_eq (c : Dev nD) : StableHlo.after prelude (fun b => m (c, b)) (Proc.devRef .tc main_v9) = Cert.ReferenceIdeal.Read.val_main_v9 (F := Ideal) (m (c, Proc.devRef .tc main_arg1)) := by
  have E15 := unary_at hw (fun b => m (c, b)) 15 main_v8 main_v9 rfl (by decide) (by decide)
  have E14 := unary_at hw (fun b => m (c, b)) 14 main_v7 main_v8 rfl (by decide) (by decide)
  have E13 := @binary_at _ _ _ _ _ hw (fun b => m (c, b)) 13 main_call0_v1 main_v3 main_v7
    (maximumf (F := Ideal) (s := S100000) (φ := .f32)) _ _ _ rfl (by decide) (by decide) (by decide)
  have E12 := @unary_at _ _ _ _ _ hw (fun b => m (c, b)) 12 main_call0_v0 main_call0_v1
    (broadcastInDim (α := Ideal .f32) S100000 ![] bcast_S_S100000) _ _ rfl (by decide) (by decide)
  have E11 := @unary_at _ _ _ _ _ hw (fun b => m (c, b)) 11 main_cst_2 main_call0_v0
    (fun u : S_.Idx → Ideal .f32 => u) _ _ rfl (by decide) (by decide)
  have E10 := nullary_at hw (fun b => m (c, b)) 10 main_cst_2 rfl (by decide)
  rw [E15, E14, E13, E12, E11, E10, outdeg_eq]
  rfl

/-- The destination scale as a column, which the kernel is handed: the reciprocal square root of the in-degree
    clamped below at 1. -/
theorem inscale_eq (c : Dev nD) : StableHlo.after prelude (fun b => m (c, b)) (Proc.devRef .tc main_v12) = Cert.ReferenceIdeal.Read.val_main_v12 (F := Ideal) (m (c, Proc.devRef .tc main_arg2)) := by
  have E21 := unary_at hw (fun b => m (c, b)) 21 main_v11 main_v12 rfl (by decide) (by decide)
  have E20 := unary_at hw (fun b => m (c, b)) 20 main_v10 main_v11 rfl (by decide) (by decide)
  have E19 := @binary_at _ _ _ _ _ hw (fun b => m (c, b)) 19 main_call1_v1 main_v6 main_v10
    (maximumf (F := Ideal) (s := S100000) (φ := .f32)) _ _ _ rfl (by decide) (by decide) (by decide)
  have E18 := @unary_at _ _ _ _ _ hw (fun b => m (c, b)) 18 main_call1_v0 main_call1_v1
    (broadcastInDim (α := Ideal .f32) S100000 ![] bcast_S_S100000) _ _ rfl (by decide) (by decide)
  have E17 := @unary_at _ _ _ _ _ hw (fun b => m (c, b)) 17 main_cst_3 main_call1_v0
    (fun u : S_.Idx → Ideal .f32 => u) _ _ rfl (by decide) (by decide)
  have E16 := nullary_at hw (fun b => m (c, b)) 16 main_cst_3 rfl (by decide)
  rw [E21, E20, E19, E18, E17, E16, indeg_eq]
  rfl

/-- The features scaled by the source scale. -/
theorem scaled_eq (c : Dev nD) : StableHlo.after prelude (fun b => m (c, b)) (Proc.devRef .tc main_v14) = Cert.ReferenceIdeal.Read.val_main_v14 (F := Ideal) (m (c, Proc.devRef .tc main_arg0)) (m (c, Proc.devRef .tc main_arg1)) := by
  have E23 := binary_at hw (fun b => m (c, b)) 23 main_arg0 main_v13 main_v14 rfl (by decide) (by decide) (by decide)
  have E22 := unary_at hw (fun b => m (c, b)) 22 main_v9 main_v13 rfl (by decide) (by decide)
  have A0 := after_never hw (fun b => m (c, b)) main_arg0 (by decide)
  rw [E23, E22, A0, outscale_eq]
  rfl

/-- The edges' source positions with the negative ones wrapped, as a column. -/
theorem wrapped_eq (c : Dev nD) : StableHlo.after prelude (fun b => m (c, b)) (Proc.devRef .tc main_v21) = Cert.ReferenceIdeal.Read.val_main_v20 (F := Ideal) (m (c, Proc.devRef .tc main_arg1)) := by
  have E32 := unary_at hw (fun b => m (c, b)) 32 main_v20 main_v21 rfl (by decide) (by decide)
  have E31 := ternary_at hw (fun b => m (c, b)) 31 main_v17 main_v19 main_arg1 main_v20 rfl (by decide) (by decide) (by decide) (by decide)
  have E30 := binary_at hw (fun b => m (c, b)) 30 main_arg1 main_v18 main_v19 rfl (by decide) (by decide) (by decide)
  have E29 := unary_at hw (fun b => m (c, b)) 29 main_c_4 main_v18 rfl (by decide) (by decide)
  have E28 := nullary_at hw (fun b => m (c, b)) 28 main_c_4 rfl (by decide)
  have E27 := binary_at hw (fun b => m (c, b)) 27 main_arg1 main_v16 main_v17 rfl (by decide) (by decide) (by decide)
  have E26 := unary_at hw (fun b => m (c, b)) 26 main_c main_v16 rfl (by decide) (by decide)
  have E25 := nullary_at hw (fun b => m (c, b)) 25 main_c rfl (by decide)
  have A1 := after_never hw (fun b => m (c, b)) main_arg1 (by decide)
  rw [E32, E31, E30, E29, E28, E27, E26, E25, A1]
  rfl

/-- The messages: the scaled features gathered along the edges' sources. The kernel narrows the format before the
    gather and widens it after: both are the identity on the extended reals. -/
theorem messages_eq (c : Dev nD) : StableHlo.after prelude (fun b => m (c, b)) (Proc.devRef .tc main_v23) = Cert.ReferenceIdeal.Read.val_main_v21 (F := Ideal) (m (c, Proc.devRef .tc main_arg0)) (m (c, Proc.devRef .tc main_arg1)) := by
  have E34 := unary_at hw (fun b => m (c, b)) 34 main_v22 main_v23 rfl (by decide) (by decide)
  have E33 := binary_at hw (fun b => m (c, b)) 33 main_v15 main_v21 main_v22 rfl (by decide) (by decide) (by decide)
  have E24 := unary_at hw (fun b => m (c, b)) 24 main_v14 main_v15 rfl (by decide) (by decide)
  rw [E34, E33, E24, scaled_eq, wrapped_eq]
  rfl

/-- The aggregated features, which the kernel is handed: the messages added up at the edges' destinations. -/
theorem agg_eq (c : Dev nD) : StableHlo.after prelude (fun b => m (c, b)) (Proc.devRef .tc main_v26) = Cert.ReferenceIdeal.Read.val_main_v24 (F := Ideal) (m (c, Proc.devRef .tc main_arg0)) (m (c, Proc.devRef .tc main_arg1)) (m (c, Proc.devRef .tc main_arg2)) := by
  have E38 := ternary_at hw (fun b => m (c, b)) 38 main_v24 main_v25 main_v23 main_v26 rfl (by decide) (by decide) (by decide) (by decide)
  have E37 := unary_at hw (fun b => m (c, b)) 37 main_arg2 main_v25 rfl (by decide) (by decide)
  have E36 := unary_at hw (fun b => m (c, b)) 36 main_cst_5 main_v24 rfl (by decide) (by decide)
  have E35 := nullary_at hw (fun b => m (c, b)) 35 main_cst_5 rfl (by decide)
  have A2 := after_never hw (fun b => m (c, b)) main_arg2 (by decide)
  rw [E38, E37, E36, E35, A2, messages_eq]
  rfl

end Cert.KernelIdeal.Hand

end
-- ==== Proof.EntryRows.lean ====
/-
  The three bias rows the kernel's windows read: the last host operations before the kernel reshape each bias
  vector [128] to a row [1, 128]; no later operation touches them, and their operands are arguments.
-/
import proofs.«135242_j29446295781899_2_alg».proof.Proof.Gen.KernelIdeal.Frame
import Idealize.ShloMosaic.Lib.StableHlo.Run
import Idealize.ShloMosaic.PureOps.Ideal

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The first bias vector set as a row. -/
theorem V_v27 (c : Dev nD) : (V m c main_v27 : S1x128.Idx → EReal)
    = shapeCast S1x128 (m ((c : Thread nD τ).loc main_arg4)) shapeCasts_S128_S1x128 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

/-- The second bias vector set as a row. -/
theorem V_v28 (c : Dev nD) : (V m c main_v28 : S1x128.Idx → EReal)
    = shapeCast S1x128 (m ((c : Thread nD τ).loc main_arg6)) shapeCasts_S128_S1x128 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

/-- The third bias vector set as a row. -/
theorem V_v29 (c : Dev nD) : (V m c main_v29 : S1x128.Idx → EReal)
    = shapeCast S1x128 (m ((c : Thread nD τ).loc main_arg8)) shapeCasts_S128_S1x128 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

end Cert.KernelIdeal.Hand

end
-- ==== Proof.Bridge.lean ====
/-
  The kernel's result as the network of the arguments.

  `Blocks.lean` gives the result array as the row function of the arrays the windows read; `Entry.lean` and
  `EntryRows.lean` give those arrays as functions of the arguments. Put together: entry `(p, q)` of the result is
  the three-layer network `Mlp.net` of the aggregated features `val_main_v24`, the per-row scale `val_main_v12`
  (both the reference's own stages), the three weight matrices and the three bias vectors.
-/
import proofs.«135242_j29446295781899_2_alg».proof.Proof.Blocks
import proofs.«135242_j29446295781899_2_alg».proof.Proof.Entry
import proofs.«135242_j29446295781899_2_alg».proof.Proof.EntryRows
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The value both programs end with, as a function of the arguments on core `c`. -/
def value (c : Dev nD) : S100000x128.Idx → EReal := fun i =>
  Mlp.net (N := 100000) (D := 128)
    (Cert.ReferenceIdeal.Read.val_main_v24 (F := Ideal) (m ((c : Thread nD τ).loc main_arg0)) (m ((c : Thread nD τ).loc main_arg1)) (m ((c : Thread nD τ).loc main_arg2)))
    (Cert.ReferenceIdeal.Read.val_main_v12 (F := Ideal) (m ((c : Thread nD τ).loc main_arg2)))
    (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 0) (i 1)

theorem agg_is (c : Dev nD) : aggAt m c
    = Cert.ReferenceIdeal.Read.val_main_v24 (F := Ideal) (m ((c : Thread nD τ).loc main_arg0)) (m ((c : Thread nD τ).loc main_arg1)) (m ((c : Thread nD τ).loc main_arg2)) := agg_eq m c
theorem scale_is (c : Dev nD) : scaleAt m c = Cert.ReferenceIdeal.Read.val_main_v12 (F := Ideal) (m ((c : Thread nD τ).loc main_arg2)) :=
  inscale_eq m c
theorem wc_is (c : Dev nD) : wcAt m c = (m ((c : Thread nD τ).loc main_arg3)) := V_main_arg3 m c
theorem w1_is (c : Dev nD) : w1At m c = (m ((c : Thread nD τ).loc main_arg5)) := V_main_arg5 m c
theorem w2_is (c : Dev nD) : w2At m c = (m ((c : Thread nD τ).loc main_arg7)) := V_main_arg7 m c
theorem bc_is (c : Dev nD) : (fun j : Fin 128 => bcAt m c (ix2 (0 : Fin 1) j)) = fun j : Fin 128 => (m ((c : Thread nD τ).loc main_arg4)) (ix1 j) := by
  funext j
  show (V m c main_v27 : S1x128.Idx → EReal) (ix2 (0 : Fin 1) j) = _
  rw [V_v27, shapeCast_a_1a_apply]
theorem b1_is (c : Dev nD) : (fun j : Fin 128 => b1At m c (ix2 (0 : Fin 1) j)) = fun j : Fin 128 => (m ((c : Thread nD τ).loc main_arg6)) (ix1 j) := by
  funext j
  show (V m c main_v28 : S1x128.Idx → EReal) (ix2 (0 : Fin 1) j) = _
  rw [V_v28, shapeCast_a_1a_apply]
theorem b2_is (c : Dev nD) : (fun j : Fin 128 => b2At m c (ix2 (0 : Fin 1) j)) = fun j : Fin 128 => (m ((c : Thread nD τ).loc main_arg8)) (ix1 j) := by
  funext j
  show (V m c main_v29 : S1x128.Idx → EReal) (ix2 (0 : Fin 1) j) = _
  rw [V_v29, shapeCast_a_1a_apply]

/-- The result array is the network of the arguments. -/
theorem result_eq (c : Dev nD) : result m c = value m c := by
  funext i
  obtain ⟨p, q, rfl⟩ : ∃ (p : Fin 100000) (q : Fin 128), i = ix2 p q := ⟨i 0, i 1, eq_ix2 i⟩
  show atRow m c p q = Mlp.net (N := 100000) (D := 128)
    (Cert.ReferenceIdeal.Read.val_main_v24 (F := Ideal) (m ((c : Thread nD τ).loc main_arg0)) (m ((c : Thread nD τ).loc main_arg1)) (m ((c : Thread nD τ).loc main_arg2)))
    (Cert.ReferenceIdeal.Read.val_main_v12 (F := Ideal) (m ((c : Thread nD τ).loc main_arg2)))
    (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) p q
  unfold atRow Mlp.net
  rw [agg_is, scale_is, wc_is, w1_is, w2_is, bc_is, b1_is, b2_is]

/-- The kernel's run, read: the result array at `value`, the arguments unchanged. -/
theorem run_value : θ_run defs (onTc (τ := τ) (main (F := Ideal))) ⟨m, fun _ => 0, ρ⟩ fun r => ∀ c : Dev nD,
      r.2.mem ((c : Thread nD τ).loc main_v30) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (result_eq m c), (h c).2⟩) (run m ρ)

end Cert.KernelIdeal.Hand

end
-- ==== Proof.HostRows.lean ====
/-
  The reference program at one entry: its three whole-matrix dense layers, read at row `p`, column `c`, are the
  network `Mlp.net` of the aggregated features and the per-row scale the program computed before them.
-/
import proofs.«135242_j29446295781899_2_alg».proof.Proof.DenseLayer
import proofs.«135242_j29446295781899_2_alg».proof.Proof.Gen.ReferenceIdeal.Read

noncomputable section

open scoped BigOperators

namespace Cert.ReferenceIdeal.Hand

open Cert.ReferenceIdeal Cert.ReferenceIdeal.Gen Cert.ReferenceIdeal.Read Idealize.ShloMosaic Idealize.ShloMosaic.ValueIdx

/-- The second rectifier of the reference, at an entry: the maximum with the zero word's value. -/
theorem relu36 (x0 : FVec Ideal S100000x128 .f32) (x1 x2 : IVec S1600000 32) (x3 : FVec Ideal S128x128 .f32)
    (x4 : FVec Ideal S128 .f32) (x5 : FVec Ideal S128x128 .f32) (x6 : FVec Ideal S128 .f32) (p : Fin 100000) (k : Fin 128) :
    val_main_v36 (F := Ideal) x0 x1 x2 x3 x4 x5 x6 (ix2 p k) = Mlp.relu (val_main_v35 (F := Ideal) x0 x1 x2 x3 x4 x5 x6 (ix2 p k)) := by
  unfold val_main_v36 Mlp.relu
  rw [maximumf_apply, val_main_call3_v0_apply]
  rfl

/-- The first rectifier of the reference, at an entry. -/
theorem relu31 (x0 : FVec Ideal S100000x128 .f32) (x1 x2 : IVec S1600000 32) (x3 : FVec Ideal S128x128 .f32)
    (x4 : FVec Ideal S128 .f32) (p : Fin 100000) (k : Fin 128) :
    val_main_v31 (F := Ideal) x0 x1 x2 x3 x4 (ix2 p k) = Mlp.relu (val_main_v30 (F := Ideal) x0 x1 x2 x3 x4 (ix2 p k)) := by
  unfold val_main_v31 Mlp.relu
  rw [maximumf_apply, val_main_call2_v0_apply]
  rfl

/-- The reference's result at row `p`, column `c` is the network of the aggregated features `val_main_v24` and the
    per-row scale `val_main_v12`: each whole-matrix layer read at an entry is the dense layer of one row. -/
theorem ref_apply (x0 : FVec Ideal S100000x128 .f32) (x1 x2 : IVec S1600000 32) (x3 : FVec Ideal S128x128 .f32)
    (x4 : FVec Ideal S128 .f32) (x5 : FVec Ideal S128x128 .f32) (x6 : FVec Ideal S128 .f32)
    (x7 : FVec Ideal S128x128 .f32) (x8 : FVec Ideal S128 .f32) (p : Fin 100000) (c : Fin 128) :
    val_main_v40 (F := Ideal) x0 x1 x2 x3 x4 x5 x6 x7 x8 (ix2 p c)
      = Mlp.net (val_main_v24 (F := Ideal) x0 x1 x2) (val_main_v12 (F := Ideal) x2) x3 x4 x5 x6 x7 x8 p c := by
  unfold val_main_v40 val_main_v39 val_main_v38 val_main_v37 Mlp.net Mlp.row
  refine (Mlp.dense_host _ rfl none _ _ _ _ _ p c).trans ?_
  refine congrArg (fun f => Mlp.dense f _ _ c) (funext fun k => ?_)
  refine (relu36 x0 x1 x2 x3 x4 x5 x6 p k).trans (congrArg Mlp.relu ?_)
  unfold val_main_v35 val_main_v34 val_main_v33 val_main_v32
  refine (Mlp.dense_host _ rfl none _ _ _ _ _ p k).trans ?_
  refine congrArg (fun f => Mlp.dense f _ _ k) (funext fun l => ?_)
  refine (relu31 x0 x1 x2 x3 x4 p l).trans (congrArg Mlp.relu ?_)
  unfold val_main_v30 val_main_v29 val_main_v28 val_main_v27
  refine (Mlp.dense_host _ rfl none _ _ _ _ _ p l).trans ?_
  refine congrArg (fun f => Mlp.dense f _ _ l) (funext fun q => ?_)
  unfold val_main_v26 val_main_v25
  rw [mulf_apply, Cert.Lib.BroadcastInDim.col_lanes_apply]

end Cert.ReferenceIdeal.Hand

end
-- ==== Proof.lean ====
/-
  Three dense layers after a graph aggregation, row-blocked on the matrix unit against the same network written
  with whole-matrix products.

  Both programs first compute, on the host and by the same operations, the aggregated features `A` (the features
  scaled by the reciprocal square root of the clamped out-degree, gathered along the edges and summed into their
  destinations) and the per-row scale `n` (the same of the in-degree); the kernel's one difference there, a change
  of format around the gather, is the identity on the extended reals. Then the reference multiplies `A` by `n`
  row by row and applies three dense layers, rectified after the first two, as products of whole matrices; the
  kernel does the same on 50 blocks of 2000 rows. Every entry of the result depends on one row of `A` and `n`
  only, so both end with `Mlp.net A n …` at every entry (`Hand.value`): no law of arithmetic is needed beyond
  reading the operations at an index, and the precondition is not used.
-/
import proofs.«135242_j29446295781899_2_alg».proof.Defs
import proofs.«135242_j29446295781899_2_alg».proof.Proof.Gen.Kernel
import proofs.«135242_j29446295781899_2_alg».proof.Proof.Gen.Kernel.Skeleton
import proofs.«135242_j29446295781899_2_alg».proof.Proof.Gen.Kernel.Launch
import proofs.«135242_j29446295781899_2_alg».proof.Proof.Gen.Kernel.Points
import proofs.«135242_j29446295781899_2_alg».proof.Proof.Gen.Kernel.Frame
import proofs.«135242_j29446295781899_2_alg».proof.Proof.Gen.KernelIdeal
import proofs.«135242_j29446295781899_2_alg».proof.Proof.Gen.KernelIdeal.Skeleton
import proofs.«135242_j29446295781899_2_alg».proof.Proof.Gen.KernelIdeal.Launch
import proofs.«135242_j29446295781899_2_alg».proof.Proof.Gen.KernelIdeal.Points
import proofs.«135242_j29446295781899_2_alg».proof.Proof.Gen.KernelIdeal.Frame
import proofs.«135242_j29446295781899_2_alg».proof.Proof.Gen.ReferenceIdeal
import proofs.«135242_j29446295781899_2_alg».proof.Proof.Gen.Pre_finite_inputs
import proofs.«135242_j29446295781899_2_alg».proof.Proof.Gen.KernelIdeal.Value
import proofs.«135242_j29446295781899_2_alg».proof.Proof.Gen.ReferenceIdeal.Run
import proofs.«135242_j29446295781899_2_alg».proof.Proof.Gen.ReferenceIdeal.Read
import proofs.«135242_j29446295781899_2_alg».proof.Proof.Bridge
import proofs.«135242_j29446295781899_2_alg».proof.Proof.HostRows
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as they were: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The reference's result, as the run states it, is the network of the arguments at every entry. -/
theorem ref_value (m : (ℓ : Loc Cert.KernelIdeal.nD Cert.KernelIdeal.τ Cert.KernelIdeal.sig) → Buf (Elt Ideal) ℓ)
    (c : Dev Cert.KernelIdeal.nD) :
    Cert.ReferenceIdeal.Read.val_main_v40 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
        (m ((c : Thread Cert.KernelIdeal.nD Cert.KernelIdeal.τ).loc Cert.KernelIdeal.main_arg7))
        (m ((c : Thread Cert.KernelIdeal.nD Cert.KernelIdeal.τ).loc Cert.KernelIdeal.main_arg8))
      = Cert.KernelIdeal.Hand.value m c := by
  funext i
  obtain ⟨p, q, rfl⟩ : ∃ (p : Fin 100000) (q : Fin 128), i = ix2 p q := ⟨i 0, i 1, eq_ix2 i⟩
  exact Cert.ReferenceIdeal.Hand.ref_apply _ _ _ _ _ _ _ _ _ p q

/-- From memories that agree on the arguments both idealized programs end with `Hand.value` of the arguments. -/
theorem algebraic : Cert.algebraic_KernelIdeal_ReferenceIdeal := by
  intro m ρ m' ρ' _ hagree
  refine ⟨fun c => Cert.KernelIdeal.Hand.value m c, Cert.KernelIdeal.Hand.run_value m ρ, ?_⟩
  refine (θ_run Cert.ReferenceIdeal.defs _ _).mono (fun r h c => ⟨?_, (h c).2⟩)
    (Cert.ReferenceIdeal.Value.run (F := Ideal) m' ρ')
  obtain ⟨h0, h1, h2, h3, h4, h5, h6, h7, h8⟩ := hagree c
  rw [(h c).1, Cert.ReferenceIdeal.Read.val_main_v40_eq, h0, h1, h2, h3, h4, h5, h6, h7, h8]
  exact ref_value m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
